-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩

abbrev nBuf : Space → Nat
  | .hbm => 103
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x128, .f32⟩
  | .hbm, ⟨94, _⟩ => ⟨S850000x1, .f32⟩
  | .hbm, ⟨95, _⟩ => ⟨S850000x128, .f32⟩
  | .hbm, ⟨96, _⟩ => ⟨S850000x128, .f32⟩
  | .hbm, ⟨97, _⟩ => ⟨S_, .f32⟩
  | .hbm, ⟨98, _⟩ => ⟨S50000x128, .f32⟩
  | .hbm, ⟨99, _⟩ => ⟨S850000x1, .i32⟩
  | .hbm, ⟨100, _⟩ => ⟨S50000x128, .f32⟩
  | .hbm, ⟨101, _⟩ => ⟨S1x128, .f32⟩
  | .hbm, ⟨102, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x128, .f32⟩
  | .hbm, ⟨104, _⟩ => ⟨S850000x1, .f32⟩
  | .hbm, ⟨105, _⟩ => ⟨S850000x128, .f32⟩
  | .hbm, ⟨106, _⟩ => ⟨S850000x128, .f32⟩
  | .hbm, ⟨107, _⟩ => ⟨S_, .f32⟩
  | .hbm, ⟨108, _⟩ => ⟨S50000x128, .f32⟩
  | .hbm, ⟨109, _⟩ => ⟨S850000x1, .i32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S50000x128, .f32⟩
  | .hbm, ⟨116, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run, with its result array named.

  @main is ten segments: stretches of host operations and four pipelined regions.  The buffer contents at each segment
  boundary are a fold from the launch memory (`Gen.W0` … `Gen.W10`).  The generated frame reads only the argument arrays
  off the last boundary; here the same launch is read at the result array too: after every weakly fair execution the
  result buffer holds what the fold leaves there, `Gen.W10 m ρ c` at the result's reference, and the arguments are as
  launched.
-/
import proofs.«156335_j76398878261379_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_boundary : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Run

end
-- ==== Proof.Graph.lean ====
/-
  The graph side of a graph-convolution layer, in the reference's own spelling, as functions of whole arrays.

  The edge array holds 800000 (source, target) pairs in two rows.  `src` and `dst` are its rows with the 50000
  self loops appended.  `norm` is the symmetric normalisation 1/sqrt(deg(source)) · 1/sqrt(deg(target)) of every edge,
  the degrees counted by a scatter-add of ones over the targets.  `agg e h` (`aggOf` at the graph's own lists) gathers the rows of a feature table `h`
  at the edges' sources, scales each by its edge's weight and adds it into its target's row, starting from zeros.  `biasRelu`
  adds a bias vector to every row and rectifies; `dot` is the product with a weight matrix.  `layers` is three rounds
  of dot, agg, biasRelu.  Nothing here is opened: the two programs use the very same host operations, and these names
  only let both be stated by one term.
-/
import proofs.«156335_j76398878261379_1_alg».proof.Proof.Gen.ReferenceIdeal

noncomputable section

namespace Cert.ReferenceIdeal.Graph

open Cert.ReferenceIdeal Cert.ReferenceIdeal.Gen Idealize.ShloMosaic

variable {F : FTy → Type} [FloatOps F]

/-- The edges' sources, the self loops appended. -/
def src (e : (⟨S2x800000, .i32⟩ : BufTy).Contents (Elt F)) : (⟨S850000, .i32⟩ : BufTy).Contents (Elt F) :=
  (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)

/-- The edges' targets, the self loops appended. -/
def dst (e : (⟨S2x800000, .i32⟩ : BufTy).Contents (Elt F)) : (⟨S850000, .i32⟩ : BufTy).Contents (Elt F) :=
  (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)

/-- Every edge's weight: the inverse square roots of its two end points' degrees, multiplied. -/
def norm (e : (⟨S2x800000, .i32⟩ : BufTy).Contents (Elt F)) : (⟨S850000, .f32⟩ : BufTy).Contents (Elt F) :=
  (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (src e) (broadcastInDim S850000 ![] bcast_S_S850000 (constantI S_ 32 0#32))) (addi (src e) (broadcastInDim S850000 ![] bcast_S_S850000 (constantI S_ 32 50000#32))) (src e)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (dst e) (broadcastInDim S850000 ![] bcast_S_S850000 (constantI S_ 32 0#32))) (addi (dst e) (broadcastInDim S850000 ![] bcast_S_S850000 (constantI S_ 32 50000#32))) (dst e)))))

/-- One aggregation over edge lists `s`, `d` with edge weights `n`: the rows of `h` at the sources (an index below zero
    counted from the end), scaled by the weights, summed into the targets' rows from zeros. -/
def aggOf (s d : (⟨S850000, .i32⟩ : BufTy).Contents (Elt F)) (n : (⟨S850000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s))) (broadcastInDim S850000x128 ![0, 1] bcast_S850000x1_S850000x128_0_1 (broadcastInDim S850000x1 ![0] bcast_S850000_S850000x1_0 n)))

/-- One aggregation over the graph of the edge array `e`. -/
def agg (e : (⟨S2x800000, .i32⟩ : BufTy).Contents (Elt F)) (h : (⟨S50000x128, .f32⟩ : BufTy).Contents (Elt F)) :
    (⟨S50000x128, .f32⟩ : BufTy).Contents (Elt F) :=
  aggOf (src e) (dst e) (norm e) h

/-- A bias vector added to every row, then the rectifier. -/
def biasRelu (a : (⟨S50000x128, .f32⟩ : BufTy).Contents (Elt F)) (b : (⟨S128, .f32⟩ : BufTy).Contents (Elt F)) :
    (⟨S50000x128, .f32⟩ : BufTy).Contents (Elt F) :=
  maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The feature table times a weight matrix. -/
def dot (l : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none l w

/-- The three layers. -/
def layers (e : (⟨S2x800000, .i32⟩ : BufTy).Contents (Elt F)) (x : (⟨S50000x128, .f32⟩ : BufTy).Contents (Elt F))
    (w0 : (⟨S128x128, .f32⟩ : BufTy).Contents (Elt F)) (b0 : (⟨S128, .f32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S50000x128, .f32⟩ : BufTy).Contents (Elt F) :=
  biasRelu (agg e (dot (biasRelu (agg e (dot (biasRelu (agg e (dot x w0)) b0) w1)) b1) w2)) b2

end Cert.ReferenceIdeal.Graph

end
-- ==== Proof.LibStraightLine.lean ====
/-
  Reading a straight line of host operations one operation at a time.

  A host program printed as a list of operations is in single-assignment form: every operation writes exactly one buffer,
  and no two write the same one.  Then the fold of the whole list, read at the buffer operation `k` writes, is that
  operation's function applied to the fold of the WHOLE list read at its operands — nothing after position `k` writes
  the result, and nothing from position `k` on writes an operand.  All side conditions are memberships in lists of
  references, which are decidable; the operations themselves are never inspected beyond their `writes`.

  Use: list the references the line's operations write, in order (`outs`); prove `WritesAre ops outs` once (each entry
  holds by `rfl`: `unfold WritesAre; repeat' constructor`); then for the operation at position `k` apply the lemma of its
  kind at `ops.take k` and `ops.drop (k + 1)`, with `(writesAre.drop k)` and the memberships by `decide`.
-/
import Idealize.ShloMosaic.Lib.StableHlo.Run

noncomputable section

namespace Idealize.ShloMosaic.StableHlo.StraightLine

open Idealize.ShloMosaic Idealize.ShloMosaic.StableHlo

variable {τ : Topo} {sig : RefSig} {Val : EltTy → Type}

/-- A line of operations run in two stretches. -/
theorem after_append (a b : List (HloOp τ sig Val)) (V : Valuation τ sig Val) :
    after (a ++ b) V = after b (after a V) := by
  induction a generalizing V with
  | nil => rfl
  | cons op a ih => exact ih _

/-- Operation by operation, `ops` writes exactly the buffers of the references `outs`. -/
def WritesAre (ops : List (HloOp τ sig Val)) (outs : List (Ref sig .tc)) : Prop :=
  List.Forall₂ (fun op r => op.writes = {Proc.devRef (τ := τ) .tc r}) ops outs

/-- A reference that is none of `outs` is written by no operation of the line. -/
theorem not_written {ops : List (HloOp τ sig Val)} {outs : List (Ref sig .tc)} (h : WritesAre ops outs)
    {b : Ref sig .tc} (hb : b ∉ outs) : ∀ op ∈ ops, Proc.devRef (τ := τ) .tc b ∉ op.writes := by
  induction h with
  | nil => intro op ho; cases ho
  | @cons op r ops outs hw _ ih =>
    intro o ho
    rcases List.mem_cons.mp ho with rfl | ho
    · rw [hw, Finset.mem_singleton]
      exact devRef_ne_of_ne fun e => hb (e ▸ List.mem_cons_self)
    · exact ih (fun hm => hb (List.mem_cons_of_mem _ hm)) o ho

/-- So the line leaves it as it was. -/
theorem after_kept {ops : List (HloOp τ sig Val)} {outs : List (Ref sig .tc)} (h : WritesAre ops outs)
    {b : Ref sig .tc} (hb : b ∉ outs) (V : Valuation τ sig Val) :
    after ops V (Proc.devRef .tc b) = V (Proc.devRef .tc b) :=
  after_of_forall_not_mem ops V (not_written h hb)

/-- The stretch after a position writes the references listed after it. -/
theorem WritesAre.drop {ops : List (HloOp τ sig Val)} {outs : List (Ref sig .tc)} (h : WritesAre ops outs) (k : Nat) :
    WritesAre (ops.drop k) (outs.drop k) := List.forall₂_drop k h

/-- THE READING LEMMA.  With the line cut at one operation, `ops = pre ++ op :: post`: a buffer `b` that `post` does not
    write holds after the whole line what `op` leaves in it after `pre`. -/
theorem after_cut (pre post : List (HloOp τ sig Val)) (op : HloOp τ sig Val) (V : Valuation τ sig Val) (b : DevRef τ sig)
    (hpost : ∀ o ∈ post, b ∉ o.writes) :
    after (pre ++ op :: post) V b = op.result (after pre V) b := by
  rw [after_append, after_cons, after_of_forall_not_mem post _ hpost]

/-- An operand of the operation at the cut — a reference neither the operation nor anything after it writes — holds
    after the whole line what it held after `pre`. -/
theorem after_cut_operand (pre post : List (HloOp τ sig Val)) (op : HloOp τ sig Val) (V : Valuation τ sig Val)
    {outs : List (Ref sig .tc)} (h : WritesAre (op :: post) outs) {x : Ref sig .tc} (hx : x ∉ outs) :
    after (pre ++ op :: post) V (Proc.devRef .tc x) = after pre V (Proc.devRef .tc x) := by
  rw [after_append]
  exact after_kept h hx _

/-- A one-operand operation at the cut: its result buffer holds its function of what the WHOLE line leaves in its
    operand. `outs` lists what the operation and everything after it write; the result is its head. -/
theorem unary_at (pre post : List (HloOp τ sig Val)) (x y : Ref sig .tc) (f : x.ty.Contents Val → y.ty.Contents Val) (hx hy)
    (V : Valuation τ sig Val) {outs : List (Ref sig .tc)} (h : WritesAre (unary (τ := τ) x y f hx hy :: post) (y :: outs))
    (hyo : y ∉ outs) (hxo : x ∉ y :: outs) :
    after (pre ++ unary x y f hx hy :: post) V (Proc.devRef .tc y)
      = f (after (pre ++ unary x y f hx hy :: post) V (Proc.devRef .tc x)) := by
  have hpost : WritesAre post outs := by cases h with | cons _ h' => exact h'
  rw [after_cut pre post _ V _ (not_written hpost hyo), unary_result, after_cut_operand pre post _ V h hxo]

/-- A two-operand operation at the cut. -/
theorem binary_at (pre post : List (HloOp τ sig Val)) (a b y : Ref sig .tc)
    (f : a.ty.Contents Val → b.ty.Contents Val → y.ty.Contents Val) (ha hb hy)
    (V : Valuation τ sig Val) {outs : List (Ref sig .tc)} (h : WritesAre (binary (τ := τ) a b y f ha hb hy :: post) (y :: outs))
    (hyo : y ∉ outs) (hao : a ∉ y :: outs) (hbo : b ∉ y :: outs) :
    after (pre ++ binary a b y f ha hb hy :: post) V (Proc.devRef .tc y)
      = f (after (pre ++ binary a b y f ha hb hy :: post) V (Proc.devRef .tc a))
          (after (pre ++ binary a b y f ha hb hy :: post) V (Proc.devRef .tc b)) := by
  have hpost : WritesAre post outs := by cases h with | cons _ h' => exact h'
  rw [after_cut pre post _ V _ (not_written hpost hyo), binary_result, after_cut_operand pre post _ V h hao,
    after_cut_operand pre post _ V h hbo]

/-- An operation with no operand at the cut. -/
theorem nullary_at (pre post : List (HloOp τ sig Val)) (y : Ref sig .tc) (v : y.ty.Contents Val) (hy)
    (V : Valuation τ sig Val) {outs : List (Ref sig .tc)} (h : WritesAre (nullary (τ := τ) y v hy :: post) (y :: outs))
    (hyo : y ∉ outs) :
    after (pre ++ nullary y v hy :: post) V (Proc.devRef .tc y) = v := by
  have hpost : WritesAre post outs := by cases h with | cons _ h' => exact h'
  rw [after_cut pre post _ V _ (not_written hpost hyo), nullary_result]

/-- A three-operand operation at the cut (a `select`, a `clamp`). -/
theorem ternary_at (pre post : List (HloOp τ sig Val)) (c a b y : Ref sig .tc)
    (f : c.ty.Contents Val → a.ty.Contents Val → b.ty.Contents Val → y.ty.Contents Val) (hc ha hb hy)
    (V : Valuation τ sig Val) {outs : List (Ref sig .tc)} (h : WritesAre (ternary (τ := τ) c a b y f hc ha hb hy :: post) (y :: outs))
    (hyo : y ∉ outs) (hco : c ∉ y :: outs) (hao : a ∉ y :: outs) (hbo : b ∉ y :: outs) :
    after (pre ++ ternary c a b y f hc ha hb hy :: post) V (Proc.devRef .tc y)
      = f (after (pre ++ ternary c a b y f hc ha hb hy :: post) V (Proc.devRef .tc c))
          (after (pre ++ ternary c a b y f hc ha hb hy :: post) V (Proc.devRef .tc a))
          (after (pre ++ ternary c a b y f hc ha hb hy :: post) V (Proc.devRef .tc b)) := by
  have hpost : WritesAre post outs := by cases h with | cons _ h' => exact h'
  rw [after_cut pre post _ V _ (not_written hpost hyo), ternary_result, after_cut_operand pre post _ V h hco,
    after_cut_operand pre post _ V h hao, after_cut_operand pre post _ V h hbo]

/-- A reshape at the cut: the operand's elements in row-major order at the result's shape. -/
theorem reshape_at (pre post : List (HloOp τ sig Val)) (x y : Ref sig .tc) (he : x.ty.elt = y.ty.elt)
    (hn : x.ty.shape.ShapeCasts y.ty.shape) (hx hy)
    (V : Valuation τ sig Val) {outs : List (Ref sig .tc)} (h : WritesAre (reshape (τ := τ) (Val := Val) x y he hn hx hy :: post) (y :: outs))
    (hyo : y ∉ outs) (hxo : x ∉ y :: outs) :
    after (pre ++ reshape x y he hn hx hy :: post) V (Proc.devRef .tc y)
      = fun i => he ▸ shapeCast y.ty.shape (after (pre ++ reshape x y he hn hx hy :: post) V (Proc.devRef .tc x)) hn i := by
  have hpost : WritesAre post outs := by cases h with | cons _ h' => exact h'
  rw [after_cut pre post _ V _ (not_written hpost hyo), reshape_result, after_cut_operand pre post _ V h hxo]

/-- An operation of any number of operands at the cut (a concatenation): its function of what the WHOLE line leaves in
    each operand. -/
theorem nary_at {n : Nat} (pre post : List (HloOp τ sig Val)) (xs : Fin n → Ref sig .tc) (y : Ref sig .tc)
    (f : ((k : Fin n) → (xs k).ty.Contents Val) → y.ty.Contents Val) (hxs hy)
    (V : Valuation τ sig Val) {outs : List (Ref sig .tc)} (h : WritesAre (nary (τ := τ) xs y f hxs hy :: post) (y :: outs))
    (hyo : y ∉ outs) (hxo : ∀ k, xs k ∉ y :: outs) :
    after (pre ++ nary xs y f hxs hy :: post) V (Proc.devRef .tc y)
      = f (fun k => after (pre ++ nary xs y f hxs hy :: post) V (Proc.devRef .tc (xs k))) := by
  have hpost : WritesAre post outs := by cases h with | cons _ h' => exact h'
  rw [after_cut pre post _ V _ (not_written hpost hyo), nary_result]
  congr 1
  funext k
  exact (after_cut_operand pre post _ V h (hxo k)).symm

/-- The line cut at a position: a reference written by none of the operations from position `k` on holds after the whole
    line what it holds after the first `k`. -/
theorem after_take {ops : List (HloOp τ sig Val)} {outs : List (Ref sig .tc)} (h : WritesAre ops outs) (k : Nat)
    {b : Ref sig .tc} (hb : b ∉ outs.drop k) (V : Valuation τ sig Val) :
    after ops V (Proc.devRef .tc b) = after (ops.take k) V (Proc.devRef .tc b) := by
  have e : after ops V = after (ops.drop k) (after (ops.take k) V) := by
    rw [← after_append, List.take_append_drop]
  rw [e]
  exact after_kept (h.drop k) hb _

/-- An argument of the program — a reference no operation writes — holds after the whole line what it held before. -/
theorem argument_kept {ops : List (HloOp τ sig Val)} {outs : List (Ref sig .tc)} (h : WritesAre ops outs)
    {b : Ref sig .tc} (hb : b ∉ outs) (V : Valuation τ sig Val) :
    after ops V (Proc.devRef .tc b) = V (Proc.devRef .tc b) := after_kept h hb V

end Idealize.ShloMosaic.StableHlo.StraightLine

end
-- ==== Proof.KernelHost.lean ====
/-
  The idealized kernel's host operations, read at the buffers the regions and the later stretches use.

  @main's host operations come in stretches between the four regions.  The first three stretches compute, from the edge
  array alone, the edges' sources and targets (self loops appended) and every edge's weight; they are never written
  again.  Each later stretch aggregates the feature table the region before it produced — gather the rows at the
  sources, scale by the edge weights, scatter-add into the targets' rows from zeros — and lays the next layer's bias
  vector as a 1×128 row.  Every statement here is about the fold of one stretch over ARBITRARY buffer contents, or about
  buffers a stretch or a region leaves alone, so nothing of the regions is opened.
-/
import proofs.«156335_j76398878261379_1_alg».proof.Proof.Gen.KernelIdeal.Frame
import proofs.«156335_j76398878261379_1_alg».proof.Proof.Graph
import proofs.«156335_j76398878261379_1_alg».proof.Proof.LibStraightLine
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.ShloMosaic.StableHlo
open Idealize.ShloMosaic.StableHlo.StraightLine Idealize.ShloMosaic.ValueIdx
open Cert.ReferenceIdeal.Graph (src dst norm aggOf)

variable {F : FTy → Type} [FloatOps F]

/-! ## What each stretch writes -/

abbrev outs0 : List (Ref sig .tc) := [main_v0, main_v1, main_v2, main_v3, main_v4, main_v5, main_v6, main_cst, main_v7, main_cst_0, main_v8, main_v9, main_v10, main_cst_1, main_v11, main_v12, main_v13, main_cst_2]
abbrev outs0_1 : List (Ref sig .tc) := [main_call0_v0, main_call0_v1, main_v14]
abbrev outs0_2 : List (Ref sig .tc) := [main_c, main_v15, main_v16, main_c_3, main_v17, main_v18, main_v19, main_v20, main_v21, main_c_4, main_v22, main_v23, main_c_5, main_v24, main_v25, main_v26, main_v27, main_v28, main_v29]
abbrev outs1 : List (Ref sig .tc) := [main_c_6, main_v31, main_v32, main_c_7, main_v33, main_v34, main_v35, main_v36, main_v37, main_v38, main_v39, main_v40, main_cst_8, main_v41, main_v42, main_v43, main_v44]
abbrev outs2 : List (Ref sig .tc) := [main_c_9, main_v46, main_v47, main_c_10, main_v48, main_v49, main_v50, main_v51, main_v52, main_v53, main_v54, main_v55, main_cst_11, main_v56, main_v57, main_v58, main_v59]
abbrev outs3 : List (Ref sig .tc) := [main_c_12, main_v61, main_v62, main_c_13, main_v63, main_v64, main_v65, main_v66, main_v67, main_v68, main_v69, main_v70, main_cst_14, main_v71, main_v72, main_v73, main_v74]

theorem writes0 : WritesAre (hostOps0 : List (HloOp τ sig (Elt F))) outs0 := by unfold WritesAre; repeat' constructor
theorem writes0_1 : WritesAre (hostOps0_1 : List (HloOp τ sig (Elt F))) outs0_1 := by unfold WritesAre; repeat' constructor
theorem writes0_2 : WritesAre (hostOps0_2 : List (HloOp τ sig (Elt F))) outs0_2 := by unfold WritesAre; repeat' constructor
theorem writes1 : WritesAre (hostOps1 : List (HloOp τ sig (Elt F))) outs1 := by unfold WritesAre; repeat' constructor
theorem writes2 : WritesAre (hostOps2 : List (HloOp τ sig (Elt F))) outs2 := by unfold WritesAre; repeat' constructor
theorem writes3 : WritesAre (hostOps3 : List (HloOp τ sig (Elt F))) outs3 := by unfold WritesAre; repeat' constructor

/-! ## The buffers carried from the first stretches to the end -/

/-- The edge lists, the edge weights and the later layers' weights and biases: written by no later stretch and the
    array of no region before the one that reads them. -/
abbrev carried : List (Ref sig .tc) := [main_v3, main_v6, main_v29, main_arg3, main_arg4, main_arg5, main_arg6, main_arg7]
/-- The arguments. -/
abbrev args : List (Ref sig .tc) := [main_arg0, main_arg1, main_arg2, main_arg3, main_arg4, main_arg5, main_arg6, main_arg7]

theorem args_not_outs0 : ∀ b ∈ args, b ∉ outs0 := by decide
theorem args_not_outs0_1 : ∀ b ∈ args, b ∉ outs0_1 := by decide
theorem args_not_outs0_2 : ∀ b ∈ args, b ∉ outs0_2 := by decide
theorem carried_not_outs1 : ∀ b ∈ carried, b ∉ outs1 := by decide
theorem carried_not_outs2 : ∀ b ∈ carried, b ∉ outs2 := by decide
theorem carried_not_outs3 : ∀ b ∈ carried, b ∉ outs3 := by decide
theorem carried_not_arr0 : ∀ b ∈ carried, ∀ w, Pipeline.arrRef spec0 w ≠ b := by decide
theorem carried_not_arr1 : ∀ b ∈ carried, b ≠ main_arg4 → ∀ w, Pipeline.arrRef spec1 w ≠ b := by decide
theorem carried_not_arr2 : ∀ b ∈ carried, b ≠ main_arg4 → b ≠ main_arg6 → ∀ w, Pipeline.arrRef spec2 w ≠ b := by decide

/-! ## One stretch over arbitrary contents -/

/-- The aggregation stretch after region 0: the table `main_v30` aggregated over the edges. -/
theorem agg_stretch1 (X : Valuation τ sig (Elt F)) :
    after hostOps1 X (Proc.devRef .tc main_v43)
      = aggOf (X (Proc.devRef .tc main_v3)) (X (Proc.devRef .tc main_v6)) (X (Proc.devRef .tc main_v29)) (X (Proc.devRef .tc main_v30)) := by
  after_results
  rfl

/-- The aggregation stretch after region 1. -/
theorem agg_stretch2 (X : Valuation τ sig (Elt F)) :
    after hostOps2 X (Proc.devRef .tc main_v58)
      = aggOf (X (Proc.devRef .tc main_v3)) (X (Proc.devRef .tc main_v6)) (X (Proc.devRef .tc main_v29)) (X (Proc.devRef .tc main_v45)) := by
  after_results
  rfl

/-- The aggregation stretch after region 2. -/
theorem agg_stretch3 (X : Valuation τ sig (Elt F)) :
    after hostOps3 X (Proc.devRef .tc main_v73)
      = aggOf (X (Proc.devRef .tc main_v3)) (X (Proc.devRef .tc main_v6)) (X (Proc.devRef .tc main_v29)) (X (Proc.devRef .tc main_v60)) := by
  after_results
  rfl

/-- The bias of layer 0 laid as a row: its one row is the vector. -/
theorem row_stretch1 (X : Valuation τ sig (Elt F)) (q : Fin 128) :
    (after hostOps1 X (Proc.devRef .tc main_v44) : S1x128.Idx → Elt F .f32) (ix2 (0 : Fin 1) q)
      = (X (Proc.devRef .tc main_arg3) : S128.Idx → Elt F .f32) (ix1 q) := by
  have e : (after hostOps1 X (Proc.devRef .tc main_v44) : S1x128.Idx → Elt F .f32)
      = shapeCast S1x128 (X (Proc.devRef .tc main_arg3) : S128.Idx → Elt F .f32) shapeCasts_S128_S1x128 := by
    after_results
    rfl
  rw [e]
  exact shapeCast_a_1a_apply _ _ 0 q

/-- The bias of layer 1 laid as a row. -/
theorem row_stretch2 (X : Valuation τ sig (Elt F)) (q : Fin 128) :
    (after hostOps2 X (Proc.devRef .tc main_v59) : S1x128.Idx → Elt F .f32) (ix2 (0 : Fin 1) q)
      = (X (Proc.devRef .tc main_arg5) : S128.Idx → Elt F .f32) (ix1 q) := by
  have e : (after hostOps2 X (Proc.devRef .tc main_v59) : S1x128.Idx → Elt F .f32)
      = shapeCast S1x128 (X (Proc.devRef .tc main_arg5) : S128.Idx → Elt F .f32) shapeCasts_S128_S1x128 := by
    after_results
    rfl
  rw [e]
  exact shapeCast_a_1a_apply _ _ 0 q

/-- The bias of layer 2 laid as a row. -/
theorem row_stretch3 (X : Valuation τ sig (Elt F)) (q : Fin 128) :
    (after hostOps3 X (Proc.devRef .tc main_v74) : S1x128.Idx → Elt F .f32) (ix2 (0 : Fin 1) q)
      = (X (Proc.devRef .tc main_arg7) : S128.Idx → Elt F .f32) (ix1 q) := by
  have e : (after hostOps3 X (Proc.devRef .tc main_v74) : S1x128.Idx → Elt F .f32)
      = shapeCast S1x128 (X (Proc.devRef .tc main_arg7) : S128.Idx → Elt F .f32) shapeCasts_S128_S1x128 := by
    after_results
    rfl
  rw [e]
  exact shapeCast_a_1a_apply _ _ 0 q

/-! ## The first three stretches: the edge lists and the edge weights, from the edge array -/

variable (m : (ℓ : Loc nD τ sig) → Buf (Elt F) ℓ) (ρ : Dev nD → PrngReg)

/-- An argument is as launched when region 0 is entered. -/
theorem arg_W3 (c : Dev nD) (b : Ref sig .tc) (hb : b ∈ args) :
    W3 m ρ c (Proc.devRef .tc b) = m ((c : Thread nD τ).loc b) :=
  (after_kept writes0_2 (args_not_outs0_2 b hb) _).trans
    ((after_kept writes0_1 (args_not_outs0_1 b hb) _).trans (after_kept writes0 (args_not_outs0 b hb) _))

theorem src_W3 (c : Dev nD) : W3 m ρ c (Proc.devRef .tc main_v3) = src (m ((c : Thread nD τ).loc main_arg1)) := by
  after_results_simp
  rfl

theorem dst_W3 (c : Dev nD) : W3 m ρ c (Proc.devRef .tc main_v6) = dst (m ((c : Thread nD τ).loc main_arg1)) := by
  after_results_simp
  rfl

theorem norm_W3 (c : Dev nD) : W3 m ρ c (Proc.devRef .tc main_v29) = norm (m ((c : Thread nD τ).loc main_arg1)) := by
  after_results_simp
  rfl

/-! ## Carried through the regions and the later stretches -/

theorem carried_W4 (c : Dev nD) (b : Ref sig .tc) (hb : b ∈ carried) :
    W4 m ρ c (Proc.devRef .tc b) = W3 m ρ c (Proc.devRef .tc b) := W4_of_ne m ρ c b (carried_not_arr0 b hb)
theorem carried_W5 (c : Dev nD) (b : Ref sig .tc) (hb : b ∈ carried) :
    W5 m ρ c (Proc.devRef .tc b) = W3 m ρ c (Proc.devRef .tc b) :=
  (after_kept writes1 (carried_not_outs1 b hb) _).trans (carried_W4 m ρ c b hb)
theorem carried_W6 (c : Dev nD) (b : Ref sig .tc) (hb : b ∈ carried) (h4 : b ≠ main_arg4) :
    W6 m ρ c (Proc.devRef .tc b) = W3 m ρ c (Proc.devRef .tc b) :=
  (W6_of_ne m ρ c b (carried_not_arr1 b hb h4)).trans (carried_W5 m ρ c b hb)
theorem carried_W7 (c : Dev nD) (b : Ref sig .tc) (hb : b ∈ carried) (h4 : b ≠ main_arg4) :
    W7 m ρ c (Proc.devRef .tc b) = W3 m ρ c (Proc.devRef .tc b) :=
  (after_kept writes2 (carried_not_outs2 b hb) _).trans (carried_W6 m ρ c b hb h4)
theorem carried_W8 (c : Dev nD) (b : Ref sig .tc) (hb : b ∈ carried) (h4 : b ≠ main_arg4) (h6 : b ≠ main_arg6) :
    W8 m ρ c (Proc.devRef .tc b) = W3 m ρ c (Proc.devRef .tc b) :=
  (W8_of_ne m ρ c b (carried_not_arr2 b hb h4 h6)).trans (carried_W7 m ρ c b hb h4)

end Cert.KernelIdeal.HostValue

end
-- ==== Proof.Spec.lean ====
/-
  The two dense building blocks of a graph-convolution layer, as functions of whole arrays read index by index on the
  extended reals.

  The feature table has 50000 rows (one per node) and 128 columns.  `mm x w` is the matrix product of the table with a
  128×128 weight matrix: entry (p, q) is the sum over k of x(p, k) · w(k, q).  `br a b` adds a bias row b (kept as a
  1×128 array) to every row of the table and rectifies: entry (p, q) is max(a(p, q) + b(0, q), 0).
-/
import Idealize.ShloMosaic.Lib.ValueIdx
import Idealize.ShloMosaic.PureOps.Ideal

noncomputable section

open scoped BigOperators

namespace Cert.Spec

open Idealize.ShloMosaic Idealize.ShloMosaic.ValueIdx

/-- The node feature table: 50000 rows of 128 features. -/
abbrev Nodes : Shape := ⟨2, ![50000, 128]⟩
/-- A layer's weight matrix. -/
abbrev Weights : Shape := ⟨2, ![128, 128]⟩
/-- A layer's bias, as one row. -/
abbrev BiasRow : Shape := ⟨2, ![1, 128]⟩

/-- The table times a weight matrix: entry (p, q) is the sum over k of x(p, k) · w(k, q). -/
def mm (x : Nodes.Idx → Elt Ideal .f32) (w : Weights.Idx → Elt Ideal .f32) : Nodes.Idx → Elt Ideal .f32 :=
  fun i => ∑ k : Fin 128, x (ix2 (n0 := 50000) (n1 := 128) (i 0) k) * w (ix2 (n0 := 128) (n1 := 128) k (i 1))

/-- The bias row added to every row of the table, then the rectifier: entry (p, q) is max(a(p, q) + b(0, q), 0). -/
def br (a : Nodes.Idx → Elt Ideal .f32) (b : BiasRow.Idx → Elt Ideal .f32) : Nodes.Idx → Elt Ideal .f32 :=
  fun i => max (a i + b (ix2 (n0 := 1) (n1 := 128) 0 (i 1))) 0

theorem mm_apply (x : Nodes.Idx → Elt Ideal .f32) (w : Weights.Idx → Elt Ideal .f32) (p : Fin 50000) (q : Fin 128) :
    mm x w (ix2 p q) = ∑ k : Fin 128, x (ix2 p k) * w (ix2 k q) := rfl

theorem br_apply (a : Nodes.Idx → Elt Ideal .f32) (b : BiasRow.Idx → Elt Ideal .f32) (p : Fin 50000) (q : Fin 128) :
    br a b (ix2 p q) = max (a (ix2 p q) + b (ix2 0 q)) 0 := rfl

end Cert.Spec

end
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.LibBiasRow.lean ====
/-
  A bias vector laid as a row and copied down the rows of a matrix, as the host spells it, read at an index.

  The host adds a length-`b` vector to every row of an `[a, b]` matrix by two `broadcast_in_dim`s: the vector to a row
  `[1, b]` along axis 1, the row to `[a, b]` along both axes. Read at `(p, q)` the result is the vector's entry `q`. A
  scalar broadcast to any shape reads, everywhere, the scalar.
-/
import Idealize.ShloMosaic.Lib.Pipeline.Value
import Idealize.ShloMosaic.Lib.ValueIdx

noncomputable section

namespace Cert.BiasRow

open Idealize.ShloMosaic Idealize.ShloMosaic.ValueIdx

variable {α : Type}

/-- A vector broadcast to a row `[1, b]` and then down the rows of `[a, b]`, at `(p, q)`: the vector at `q`. -/
theorem hostRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ ![0, 1] h2 (broadcastInDim ⟨2, ![1, b]⟩ ![1] h1 x) (ix2 p q) = x (ix1 q) := by
  refine (broadcastInDim_apply _ h2 _ (ix2 p q) (ix2 (0 : Fin 1) q) fun ax => ?_).trans
    (broadcastInDim_apply _ h1 x (ix2 (0 : Fin 1) q) (ix1 q) fun ax => ?_)
  · match ax with
    | ⟨0, _⟩ =>
      show (0 : ℕ) = if (1 : ℕ) = 1 then 0 else p.val
      rw [if_pos rfl]
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- A scalar broadcast to a shape reads the scalar at every index. -/
theorem hostScalar_apply {t : Shape} (x : (⟨0, ![]⟩ : Shape).Idx → α) (dims : Fin 0 → Fin t.rank)
    (h : (⟨0, ![]⟩ : Shape).BroadcastsInDim t dims) (j : t.Idx) (k : (⟨0, ![]⟩ : Shape).Idx) :
    broadcastInDim t dims h x j = x k :=
  broadcastInDim_apply dims h x j k fun ax => ax.elim0

end Cert.BiasRow

end
-- ==== Proof.Bridge.lean ====
/-
  The two dense building blocks, read index by index, are the reference's own operations.

  At the exact values the host's product of the feature table with a weight matrix is, at entry (p, q), the sum over k
  of x(p, k) · w(k, q): the function `Cert.Spec.mm`.  The host adds a bias vector to every row by laying it as a row
  and copying the row down, then rectifies against a zero splat: at entry (p, q) this is max(a(p, q) + b(q), 0), which
  is `Cert.Spec.br` of any 1×128 array whose one row is the vector.
-/
import proofs.«156335_j76398878261379_1_alg».proof.Proof.Graph
import proofs.«156335_j76398878261379_1_alg».proof.Proof.Spec
import proofs.«156335_j76398878261379_1_alg».proof.Proof.LibPlainDot
import proofs.«156335_j76398878261379_1_alg».proof.Proof.LibBiasRow
import Idealize.ShloMosaic.Lib.ValueIdx
import Idealize.ShloMosaic.PureOps.Ideal.Laws

noncomputable section

namespace Cert.ReferenceIdeal.Bridge

open Cert.ReferenceIdeal Cert.ReferenceIdeal.Gen Cert.ReferenceIdeal.Graph Idealize.ShloMosaic Idealize.ShloMosaic.ValueIdx

/-- The host's product of the table with a weight matrix is `mm`. -/
theorem mm_eq_dot (x : (⟨S50000x128, .f32⟩ : BufTy).Contents (Elt Ideal)) (w : (⟨S128x128, .f32⟩ : BufTy).Contents (Elt Ideal)) :
    Cert.Spec.mm x w = dot (F := Ideal) x w := by
  funext i
  obtain ⟨p, q, rfl⟩ : ∃ (p : Fin 50000) (q : Fin 128), i = ix2 p q := ⟨i 0, i 1, eq_ix2 i⟩
  rw [Cert.Spec.mm_apply]
  exact (Cert.PlainDot.dotGeneral_apply (M := 50000) (K := 128) (N := 128) none _ x w p q).symm

/-- The host's bias-and-rectifier of a vector `b` is `br` of any one-row array whose row is `b`. -/
theorem br_eq_biasRelu (a : (⟨S50000x128, .f32⟩ : BufTy).Contents (Elt Ideal)) (row : (⟨S1x128, .f32⟩ : BufTy).Contents (Elt Ideal))
    (b : (⟨S128, .f32⟩ : BufTy).Contents (Elt Ideal)) (hrow : ∀ q : Fin 128, row (ix2 (0 : Fin 1) q) = b (ix1 q)) :
    Cert.Spec.br a row = biasRelu (F := Ideal) a b := by
  funext i
  obtain ⟨p, q, rfl⟩ : ∃ (p : Fin 50000) (q : Fin 128), i = ix2 p q := ⟨i 0, i 1, eq_ix2 i⟩
  rw [Cert.Spec.br_apply, hrow q]
  unfold biasRelu
  rw [maximumf_apply, addf_apply, Cert.BiasRow.hostRow_apply (a := 50000) (b := 128) b _ _ p q,
    Cert.BiasRow.hostScalar_apply _ _ _ (ix2 p q) ix0, constant_apply, Ideal.ofBits_zero_f32]

end Cert.ReferenceIdeal.Bridge

end
-- ==== Proof.Region0.lean ====
/-
  The first layer's product, read off the row tiles.

  The feature table has 50000 rows and is processed in five row tiles of 10000 rows. At tile t the body sees rows
  10000·t … 10000·t + 9999 of the table (all 128 columns) and the whole 128×128 weight matrix, multiplies them and
  writes the 10000×128 product into the same rows of the result. Entry (p, q) of a tile's product depends on row p of
  the tile and column q of the weights only, so row r of the result is the product of row r of the table with the
  weights, whichever tile computed it: the five tiles together are the one matrix product of the whole table.
-/
import proofs.«156335_j76398878261379_1_alg».proof.Proof.Gen.KernelIdeal.Frame
import proofs.«156335_j76398878261379_1_alg».proof.Proof.Spec
import proofs.«156335_j76398878261379_1_alg».proof.Proof.LibPlainDot
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's accesses start at row 0, column 0 of its blocks. -/
theorem origin0 : (![0, 0] : Fin 2 → Nat) = fun _ => 0 := funext fun a => by fin_cases a <;> rfl

/-- A tile's product at (p, q): the sum over k of the tile's (p, k) times the weights' (k, q). Rounding the operands to
    bf16 changes nothing at the exact values. -/
theorem tile_product_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact Cert.PlainDot.matmul_zero_apply (M := 10000) (K := 128) (N := 128) none
    (truncf .bf16 x0 bitsLt_bf16_f32) (truncf .bf16 x1 bitsLt_bf16_f32) p q

/-- Where the blocks sit: at tile t the table's block and the result's block are row block t (column block 0), the
    weights' block is always block (0, 0). -/
theorem tile_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An element of the table's block at tile t sits in row 10000·t + p of the table, same column. -/
theorem table_block_read (A : S50000x128.Idx → Elt Ideal .f32) (t : Fin cfg0.N) (p : Fin 10000) (k : Fin 128)
    (h : t.val * 10000 + p.val < 50000) :
    ((cfg0.win 0).blk t).view.read (Elt Ideal) A (ix2 p k) = A (ix2 ⟨t.val * 10000 + p.val, h⟩ k) := by
  obtain ⟨e0, e1, -⟩ := tile_index0 t
  show A (((cfg0.win 0).blk t).view.emb (ix2 p k)) = A _
  refine congrArg A (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The weights' block is the whole weight matrix at every tile. -/
theorem weight_block_read (W : S128x128.Idx → Elt Ideal .f32) (t : Fin cfg0.N) (k q : Fin 128) :
    ((cfg0.win 1).blk t).view.read (Elt Ideal) W (ix2 k q) = W (ix2 k q) := by
  obtain ⟨-, -, e0, e1, -⟩ := tile_index0 t
  show W (((cfg0.win 1).blk t).view.emb (ix2 k q)) = W _
  refine congrArg W (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- An element of the result's block at tile t sits in row 10000·t + p of the result, same column. -/
theorem result_block_read (G : S50000x128.Idx → Elt Ideal .f32) (t : Fin cfg0.N) (p : Fin 10000) (q : Fin 128)
    (h : t.val * 10000 + p.val < 50000) :
    ((cfg0.win 2).blk t).view.read (Elt Ideal) G (ix2 p q) = G (ix2 ⟨t.val * 10000 + p.val, h⟩ q) := by
  obtain ⟨-, -, -, -, e0, e1⟩ := tile_index0 t
  show G (((cfg0.win 2).blk t).view.emb (ix2 p q)) = G _
  refine congrArg G (funext fun a => Fin.ext ?_)
  match a with
  | ⟨0, _⟩ => show win0_2.index t (0 : Fin 2) * 10000 + 1 * p.val = t.val * 10000 + p.val; omega
  | ⟨1, _⟩ => show win0_2.index t (1 : Fin 2) * 128 + 1 * q.val = q.val; omega

/-- What tile t writes back, for blocks read off ANY table A and weights W: block t of the product of A with W. -/
theorem tile_written0 (A : S50000x128.Idx → Elt Ideal .f32) (W : S128x128.Idx → Elt Ideal .f32) (t : Fin cfg0.N) :
    (cfg0.win 2).cut (grid0.coords t)
        (k0_pay1 (((cfg0.win 0).blk t).view.read (Elt Ideal) A) (((cfg0.win 1).blk t).view.read (Elt Ideal) W))
      = ((cfg0.win 2).blk t).view.read (Elt Ideal) (Cert.Spec.mm A W) := by
  have hN : cfg0.N = 5 := N_0
  have ht : t.val < 5 := hN ▸ t.isLt
  refine funext fun (j : S10000x128.Idx) => ?_
  obtain ⟨p, q, rfl⟩ : ∃ (p : Fin 10000) (q : Fin 128), j = ix2 p q := ⟨j 0, j 1, eq_ix2 j⟩
  have hp : t.val * 10000 + p.val < 50000 := by have := p.isLt; omega
  refine (tile_product_apply _ _ p q).trans ?_
  rw [result_block_read _ t p q hp, Cert.Spec.mm_apply]
  refine Finset.sum_congr rfl fun k _ => ?_
  rw [table_block_read A t p k hp, weight_block_read W t k q]

/-- WHAT TILE t WRITES BACK is block t of the product of the table and the weights as the region finds them. -/
theorem tile_flushed0 (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero origin0]
  simp only [View.ld_unit_zero (S := S10000x128) origin0, View.ld_unit_zero (S := S128x128) origin0]
  exact tile_written0 (V c main_arg0) (V c main_arg2) t

/-- An index of the result is in tile t's block iff its row lies in 10000·t … 10000·t + 9999. -/
theorem mem_tile0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every row of the result lies in some tile: row r in tile r / 10000. -/
theorem tiles_cover0 (i : S50000x128.Idx) :
    ∃ t : Fin cfg0.N, (cfg0.win 2).flush t = true ∧ i ∈ ((cfg0.win 2).blk t).view.set := by
  have hN : cfg0.N = 5 := N_0
  have hi0 : (i 0).val < 50000 := (i 0).isLt
  have hi1 : (i 1).val < 128 := (i 1).isLt
  let t : Fin cfg0.N := ⟨(i 0).val / 10000, by rw [hN]; omega⟩
  obtain ⟨-, -, -, -, e0, e1⟩ := tile_index0 t
  have et : t.val = (i 0).val / 10000 := rfl
  refine ⟨t, flush0_2 t, ?_⟩
  rw [mem_tile0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE RESULT after the region: the product of the table with the weights, both as the region finds them. -/
theorem final0 (c : Dev nD) :
    (dat0 (F := Ideal) V c).arrAt 2 cfg0.N = Cert.Spec.mm (V c main_arg0) (V c main_arg2) :=
  (dat0 (F := Ideal) V c).arrAt_eq_of_cover 2 (Cert.Spec.mm (V c main_arg0) (V c main_arg2))
    (fun t _ => tile_flushed0 V c t) tiles_cover0

end Cert.KernelIdeal.RegionValue

end
-- ==== Proof.Region1.lean ====
/-
  The first layer's bias and rectifier followed by the second layer's product, read off the row tiles.

  The 50000-row feature table is processed in five row tiles of 10000 rows. At tile t the body sees rows
  10000·t … 10000·t + 9999 of the incoming table (all 128 columns), the whole 1×128 bias row and the whole 128×128
  weight matrix. It adds the bias row to every row of the tile, replaces negative entries by zero, multiplies the
  result by the weights and writes the 10000×128 product into the same rows of the outgoing table. Entry (p, q) of a
  tile's product depends on row p of the tile, on the bias row and on column q of the weights only, so row r of the
  outgoing table is (row r of the incoming table, biased and rectified) times the weights, whichever tile computed it:
  the five tiles together are the one whole-table function.
-/
import proofs.«156335_j76398878261379_1_alg».proof.Proof.Gen.KernelIdeal.Frame
import proofs.«156335_j76398878261379_1_alg».proof.Proof.Spec
import proofs.«156335_j76398878261379_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's accesses start at row 0, column 0 of its blocks. -/
theorem origin1 : (![0, 0] : Fin 2 → Nat) = fun _ => 0 := funext fun a => by fin_cases a <;> rfl

/-- A tile's result at (p, q): the sum over k of max(tile(p, k) + bias(0, k), 0) times the weights' (k, q). The casts to
    the same shape and the rounding of the operands to bf16 change nothing at the exact values. -/
theorem tile_layer_apply1 (x0 : Vec Ideal S10000x128 .f32) (x1 : Vec Ideal S1x128 .f32) (x2 : Vec Ideal S128x128 .f32)
    (p : Fin 10000) (q : Fin 128) :
    k1_pay1 x0 x1 x2 (ix2 p q) = ∑ k : Fin 128, max (x0 (ix2 p k) + x1 (ix2 0 k)) 0 * x2 (ix2 k q) := by
  unfold k1_pay1
  refine (Cert.PlainDot.matmul_zero_apply (M := 10000) (K := 128) (N := 128) none _ _ p q).trans ?_
  refine Finset.sum_congr rfl fun k _ => ?_
  show max (shapeCast S10000x128 x0 shapeCasts_S10000x128_S10000x128 (ix2 p k)
      + broadcastTo S10000x128 (shapeCast S1x128 x1 shapeCasts_S1x128_S1x128) broadcasts_S1x128_S10000x128 (ix2 p k))
      (Ideal.ofBits .f32 0x00000000#32) * x2 (ix2 k q) = _
  rw [shapeCast_self, shapeCast_self, broadcastTo_1b_ab_apply, Ideal.ofBits_zero_f32]

/-- Where the blocks sit: at tile t the incoming table's block and the outgoing table's block are row block t (column
    block 0); the bias row's block and the weights' block are always block (0, 0). -/
theorem tile_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An element of the incoming table's block at tile t sits in row 10000·t + p of the table, same column. -/
theorem table_block_read1 (A : S50000x128.Idx → Elt Ideal .f32) (t : Fin cfg1.N) (p : Fin 10000) (k : Fin 128)
    (h : t.val * 10000 + p.val < 50000) :
    ((cfg1.win 0).blk t).view.read (Elt Ideal) A (ix2 p k) = A (ix2 ⟨t.val * 10000 + p.val, h⟩ k) := by
  obtain ⟨e0, e1, -⟩ := tile_index1 t
  show A (((cfg1.win 0).blk t).view.emb (ix2 p k)) = A _
  refine congrArg A (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * k.val = k.val; omega

/-- The bias row's block is the whole bias row at every tile. -/
theorem bias_block_read1 (B : S1x128.Idx → Elt Ideal .f32) (t : Fin cfg1.N) (k : Fin 128) :
    ((cfg1.win 1).blk t).view.read (Elt Ideal) B (ix2 0 k) = B (ix2 0 k) := by
  obtain ⟨-, -, e0, e1, -⟩ := tile_index1 t
  show B (((cfg1.win 1).blk t).view.emb (ix2 0 k)) = B _
  refine congrArg B (funext fun a => Fin.ext ?_)
  match a with
  | ⟨0, _⟩ => show win1_1.index t (0 : Fin 2) * 1 + 1 * (0 : Fin 1).val = (0 : Fin 1).val; omega
  | ⟨1, _⟩ => show win1_1.index t (1 : Fin 2) * 128 + 1 * k.val = k.val; omega

/-- The weights' block is the whole weight matrix at every tile. -/
theorem weight_block_read1 (W : S128x128.Idx → Elt Ideal .f32) (t : Fin cfg1.N) (k q : Fin 128) :
    ((cfg1.win 2).blk t).view.read (Elt Ideal) W (ix2 k q) = W (ix2 k q) := by
  obtain ⟨-, -, -, -, e0, e1, -⟩ := tile_index1 t
  show W (((cfg1.win 2).blk t).view.emb (ix2 k q)) = W _
  refine congrArg W (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- An element of the outgoing table's block at tile t sits in row 10000·t + p of the table, same column. -/
theorem result_block_read1 (G : S50000x128.Idx → Elt Ideal .f32) (t : Fin cfg1.N) (p : Fin 10000) (q : Fin 128)
    (h : t.val * 10000 + p.val < 50000) :
    ((cfg1.win 3).blk t).view.read (Elt Ideal) G (ix2 p q) = G (ix2 ⟨t.val * 10000 + p.val, h⟩ q) := by
  obtain ⟨-, -, -, -, -, -, e0, e1⟩ := tile_index1 t
  show G (((cfg1.win 3).blk t).view.emb (ix2 p q)) = G _
  refine congrArg G (funext fun a => Fin.ext ?_)
  match a with
  | ⟨0, _⟩ => show win1_3.index t (0 : Fin 2) * 10000 + 1 * p.val = t.val * 10000 + p.val; omega
  | ⟨1, _⟩ => show win1_3.index t (1 : Fin 2) * 128 + 1 * q.val = q.val; omega

/-- What tile t writes back, for blocks read off ANY table A, bias row B and weights W: block t of the product of the
    biased, rectified table with W. -/
theorem tile_written1 (A : S50000x128.Idx → Elt Ideal .f32) (B : S1x128.Idx → Elt Ideal .f32)
    (W : S128x128.Idx → Elt Ideal .f32) (t : Fin cfg1.N) :
    (cfg1.win 3).cut (grid1.coords t)
        (k1_pay1 (((cfg1.win 0).blk t).view.read (Elt Ideal) A) (((cfg1.win 1).blk t).view.read (Elt Ideal) B)
          (((cfg1.win 2).blk t).view.read (Elt Ideal) W))
      = ((cfg1.win 3).blk t).view.read (Elt Ideal) (Cert.Spec.mm (Cert.Spec.br A B) W) := by
  have hN : cfg1.N = 5 := N_1
  have ht : t.val < 5 := hN ▸ t.isLt
  refine funext fun (j : S10000x128.Idx) => ?_
  obtain ⟨p, q, rfl⟩ : ∃ (p : Fin 10000) (q : Fin 128), j = ix2 p q := ⟨j 0, j 1, eq_ix2 j⟩
  have hp : t.val * 10000 + p.val < 50000 := by have := p.isLt; omega
  refine (tile_layer_apply1 _ _ _ p q).trans ?_
  rw [result_block_read1 _ t p q hp, Cert.Spec.mm_apply]
  refine Finset.sum_congr rfl fun k _ => ?_
  rw [Cert.Spec.br_apply, table_block_read1 A t p k hp, bias_block_read1 B t k, weight_block_read1 W t k q]

/-- WHAT TILE t WRITES BACK is block t of the layer's whole-table function of the incoming table, the bias row and the
    weights as the region finds them. -/
theorem tile_flushed1 (c : Dev nD) (t : Fin cfg1.N) :
    (dat1 (F := Ideal) V c).flushed 3 t
      = ((cfg1.win 3).blk t).view.read (Elt Ideal)
          (Cert.Spec.mm (Cert.Spec.br (V c main_v43) (V c main_v44)) (V c main_arg4)) := by
  show (cfg1.win 3).cut (grid1.coords t) ((dat1 V c).after 3 t) = _
  rw [after1_3]
  unfold out1_3
  rw [View.canon_unit_zero origin1]
  simp only [View.ld_unit_zero (S := S10000x128) origin1, View.ld_unit_zero (S := S1x128) origin1,
    View.ld_unit_zero (S := S128x128) origin1]
  exact tile_written1 (V c main_v43) (V c main_v44) (V c main_arg4) t

/-- An index of the outgoing table is in tile t's block iff its row lies in 10000·t … 10000·t + 9999. -/
theorem mem_tile1 (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v45).slice (win1_3.rect t)).set ↔ _
  rw [View.set_slice_whole, Rect.mem_set_unit]
  exact Iff.rfl

/-- Every row of the outgoing table lies in some tile: row r in tile r / 10000. -/
theorem tiles_cover1 (i : S50000x128.Idx) :
    ∃ t : Fin cfg1.N, (cfg1.win 3).flush t = true ∧ i ∈ ((cfg1.win 3).blk t).view.set := by
  have hN : cfg1.N = 5 := N_1
  have hi0 : (i 0).val < 50000 := (i 0).isLt
  have hi1 : (i 1).val < 128 := (i 1).isLt
  let t : Fin cfg1.N := ⟨(i 0).val / 10000, by rw [hN]; omega⟩
  obtain ⟨-, -, -, -, -, -, e0, e1⟩ := tile_index1 t
  have et : t.val = (i 0).val / 10000 := rfl
  refine ⟨t, flush1_3 t, ?_⟩
  rw [mem_tile1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- THE OUTGOING TABLE after the region: the incoming table biased and rectified, times the weights, all three as the
    region finds them. -/
theorem final1 (c : Dev nD) :
    (dat1 (F := Ideal) V c).arrAt 3 cfg1.N
      = Cert.Spec.mm (Cert.Spec.br (V c main_v43) (V c main_v44)) (V c main_arg4) :=
  (dat1 (F := Ideal) V c).arrAt_eq_of_cover 3 (Cert.Spec.mm (Cert.Spec.br (V c main_v43) (V c main_v44)) (V c main_arg4))
    (fun t _ => tile_flushed1 V c t) tiles_cover1

end Cert.KernelIdeal.RegionValue

end
-- ==== Proof.Region2.lean ====
/-
  A middle layer, read as one function of whole arrays: add the bias row, rectify, multiply by the weight matrix.

  The feature table has 50000 rows and 128 columns and is swept in five row tiles of 10000 rows.  At tile t the body
  sees rows 10000·t … 10000·t + 9999 of the table, the whole bias row (a 1 × 128 array) and the whole 128 × 128 weight
  matrix (the same blocks at every tile), and writes at entry (p, q) of the tile the sum over k of
  max(a(p, k) + b(0, k), 0) · w(k, q).  An entry of the result therefore depends on its own row of the table, on the
  whole bias row and on its own column of the weight matrix, and on nothing else: no row of the table is ever read
  from another tile.  The five tiles are disjoint and fill the table, so after the sweep the output array is the
  product of the rectified table with the weight matrix, of the three input arrays as the sweep found them.
-/
import proofs.«156335_j76398878261379_1_alg».proof.Proof.Gen.KernelIdeal.Frame
import proofs.«156335_j76398878261379_1_alg».proof.Proof.Spec
import proofs.«156335_j76398878261379_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body loads and stores whole blocks: every offset is zero. -/
theorem zeroOffsets2 : (![0, 0] : Fin 2 → Nat) = fun _ => 0 := funext fun a => by fin_cases a <;> rfl

/-! ## One entry of a tile -/

/-- Entry (p, q) of what the body computes from a row tile x0, the bias row x1 and the weight block x2: row p of the
    tile with the bias row added and rectified, times column q of the weights. -/
theorem layer_entry2 (x0 : Vec Ideal S10000x128 .f32) (x1 : Vec Ideal S1x128 .f32) (x2 : Vec Ideal S128x128 .f32)
    (p : Fin 10000) (q : Fin 128) :
    k2_pay1 (F := Ideal) x0 x1 x2 (ix2 p q)
      = ∑ k : Fin 128, max (x0 (ix2 p k) + x1 (ix2 (0 : Fin 1) k)) 0 * x2 (ix2 k q) := by
  unfold k2_pay1
  refine (Cert.PlainDot.matmul_zero_apply (M := 10000) (K := 128) (N := 128) none _ _ p q).trans ?_
  refine Finset.sum_congr rfl fun k _ => ?_
  rw [truncf_apply, truncf_apply, maximumf_apply, addf_apply, broadcast_apply, shapeCast_self, shapeCast_self,
    broadcastTo_1b_ab_apply]
  exact congrArg (fun z => max _ z * _) Ideal.ofBits_zero_f32

/-- The same entry against whole arrays: if row (row of j) of the tile is row (row of i) of the table, i is in the
    column of j, and the bias and weight blocks are the bias and weight arrays, then the body's entry j is the layer
    function of the arrays at i. -/
theorem layer_tile2 (a : S50000x128.Idx → Elt Ideal .f32) (b : S1x128.Idx → Elt Ideal .f32)
    (w : S128x128.Idx → Elt Ideal .f32)
    (x0 : Vec Ideal S10000x128 .f32) (x1 : Vec Ideal S1x128 .f32) (x2 : Vec Ideal S128x128 .f32)
    (j : S10000x128.Idx) (i : S50000x128.Idx) (hcol : (i 1).val = (j 1).val)
    (hx0 : ∀ (p : Fin 10000) (r : Fin 50000), p.val = (j 0).val → r.val = (i 0).val →
      ∀ k : Fin 128, x0 (ix2 p k) = a (ix2 r k))
    (hx1 : ∀ k : Fin 128, x1 (ix2 (0 : Fin 1) k) = b (ix2 (0 : Fin 1) k))
    (hx2 : ∀ y : S128x128.Idx, x2 y = w y) :
    k2_pay1 (F := Ideal) x0 x1 x2 j = Cert.Spec.mm (Cert.Spec.br a b) w i := by
  obtain ⟨p, q, rfl⟩ : ∃ (p : Fin 10000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hcol
  rw [layer_entry2, Cert.Spec.mm_apply]
  refine Finset.sum_congr rfl fun k _ => ?_
  rw [hx0 p r rfl rfl k, hx1 k, hx2, Cert.Spec.br_apply]

/-! ## Where a tile sits in the table -/

/-- The printed index maps over the five tiles: the input tile and the output tile are both tile t of the table
    (block row t, block column 0); the bias row and the weight matrix are always block (0, 0). -/
theorem tileIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the input tile at point t is row 10000·t + p of the table. -/
theorem inputTile_read2 (A : S50000x128.Idx → Elt Ideal .f32) (t : Fin cfg2.N) (p : Fin 10000) (k : Fin 128)
    (r : Fin 50000) (hr : r.val = t.val * 10000 + p.val) :
    ((cfg2.win 0).blk t).view.read (Elt Ideal) A (ix2 p k) = A (ix2 r k) := by
  obtain ⟨e0, e1, -, -, -, -, -, -⟩ := tileIndex2 t
  show A (((cfg2.win 0).blk t).view.emb (ix2 p k)) = A (ix2 r k)
  refine congrArg A (funext fun a => Fin.ext ?_)
  match a with
  | ⟨0, _⟩ => show win2_0.index t (0 : Fin 2) * 10000 + 1 * p.val = r.val; rw [e0, hr]; omega
  | ⟨1, _⟩ => show win2_0.index t (1 : Fin 2) * 128 + 1 * k.val = k.val; rw [e1]; omega

/-- The bias block at any point is the bias array itself. -/
theorem biasBlock_read2 (B : S1x128.Idx → Elt Ideal .f32) (t : Fin cfg2.N) (y : S1x128.Idx) :
    ((cfg2.win 1).blk t).view.read (Elt Ideal) B y = B y := by
  obtain ⟨-, -, e2, e3, -, -, -, -⟩ := tileIndex2 t
  show B (((cfg2.win 1).blk t).view.emb y) = B y
  refine congrArg B (funext fun a => Fin.ext ?_)
  match a with
  | ⟨0, _⟩ => show win2_1.index t (0 : Fin 2) * 1 + 1 * (y 0).val = (y 0).val; rw [e2]; omega
  | ⟨1, _⟩ => show win2_1.index t (1 : Fin 2) * 128 + 1 * (y 1).val = (y 1).val; rw [e3]; omega

/-- The weight block at any point is the weight matrix itself. -/
theorem weightBlock_read2 (W : S128x128.Idx → Elt Ideal .f32) (t : Fin cfg2.N) (y : S128x128.Idx) :
    ((cfg2.win 2).blk t).view.read (Elt Ideal) W y = W y := by
  obtain ⟨-, -, -, -, e4, e5, -, -⟩ := tileIndex2 t
  show W (((cfg2.win 2).blk t).view.emb y) = W y
  refine congrArg W (funext fun a => Fin.ext ?_)
  match a with
  | ⟨0, _⟩ => show win2_2.index t (0 : Fin 2) * 128 + 1 * (y 0).val = (y 0).val; rw [e4]; omega
  | ⟨1, _⟩ => show win2_2.index t (1 : Fin 2) * 128 + 1 * (y 1).val = (y 1).val; rw [e5]; omega

/-- The output tile's entry j goes to row 10000·t + (row of j), in the column of j. -/
theorem outputTile_place2 (t : Fin cfg2.N) (j : S10000x128.Idx) :
    ((((cfg2.win 3).blk t).view.emb j : S50000x128.Idx) 0).val = t.val * 10000 + (j 0).val
      ∧ ((((cfg2.win 3).blk t).view.emb j : S50000x128.Idx) 1).val = (j 1).val := by
  obtain ⟨-, -, -, -, -, -, e6, e7⟩ := tileIndex2 t
  constructor
  · show win2_3.index t (0 : Fin 2) * 10000 + 1 * (j 0).val = t.val * 10000 + (j 0).val
    rw [e6]; omega
  · show win2_3.index t (1 : Fin 2) * 128 + 1 * (j 1).val = (j 1).val
    rw [e7]; omega

/-! ## What a point writes back, and the array after the sweep -/

/-- Point t writes back tile t of the layer function of the three input arrays as the sweep finds them. -/
theorem written2 (c : Dev nD) (t : Fin cfg2.N) :
    (dat2 (F := Ideal) V c).flushed 3 t
      = ((cfg2.win 3).blk t).view.read (Elt Ideal)
          (Cert.Spec.mm (Cert.Spec.br (V c main_v58) (V c main_v59)) (V c main_arg6)) := by
  show (cfg2.win 3).cut (grid2.coords t) ((dat2 V c).after 3 t) = _
  rw [after2_3]
  unfold out2_3
  rw [View.canon_unit_zero zeroOffsets2]
  simp only [View.ld_unit_zero (S := S10000x128) zeroOffsets2, View.ld_unit_zero (S := S1x128) zeroOffsets2,
    View.ld_unit_zero (S := S128x128) zeroOffsets2]
  funext j
  show k2_pay1 (iblk2 V c 0 t) (iblk2 V c 1 t) (iblk2 V c 2 t) j
    = Cert.Spec.mm (Cert.Spec.br (V c main_v58) (V c main_v59)) (V c main_arg6) (((cfg2.win 3).blk t).view.emb j)
  obtain ⟨hrow, hcol⟩ := outputTile_place2 t j
  exact layer_tile2 (V c main_v58) (V c main_v59) (V c main_arg6) _ _ _ j _ hcol
    (fun p r hp hr k => inputTile_read2 (V c main_v58) t p k r (by rw [hr, hrow, hp]))
    (fun k => biasBlock_read2 (V c main_v59) t (ix2 (0 : Fin 1) k))
    (fun y => weightBlock_read2 (V c main_arg6) t y)

/-- An entry of the table is in tile t iff its row is one of the tile's 10000 rows (and its column one of the 128). -/
theorem mem_tile2 (t : Fin cfg2.N) (i : S50000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v60).slice (win2_3.rect t)).set ↔ _
  rw [View.set_slice_whole, Rect.mem_set_unit]
  exact Iff.rfl

/-- Every entry of the table is in the tile of its row: row r is in tile r / 10000. -/
theorem tiles_cover2 (i : S50000x128.Idx) :
    ∃ t : Fin cfg2.N, (cfg2.win 3).flush t = true ∧ i ∈ ((cfg2.win 3).blk t).view.set := by
  have hN : cfg2.N = 5 := N_2
  have hi0 : (i 0).val < 50000 := (i 0).isLt
  have hi1 : (i 1).val < 128 := (i 1).isLt
  obtain ⟨t, ht⟩ : ∃ t : Fin cfg2.N, t.val = (i 0).val / 10000 := ⟨⟨(i 0).val / 10000, by rw [hN]; omega⟩, rfl⟩
  obtain ⟨-, -, -, -, -, -, e6, e7⟩ := tileIndex2 t
  refine ⟨t, flush2_3 t, ?_⟩
  rw [mem_tile2]
  intro a
  match a with
  | ⟨0, _⟩ =>
    show win2_3.index t (0 : Fin 2) * 10000 ≤ (i 0).val ∧ (i 0).val < win2_3.index t (0 : Fin 2) * 10000 + 10000
    rw [e6, ht]; omega
  | ⟨1, _⟩ =>
    show win2_3.index t (1 : Fin 2) * 128 ≤ (i 1).val ∧ (i 1).val < win2_3.index t (1 : Fin 2) * 128 + 128
    rw [e7]; omega

/-- THE ARRAY AFTER THE SWEEP: the table as the sweep found it, with the bias row added to every row and rectified,
    times the weight matrix. -/
theorem final2 (c : Dev nD) :
    (dat2 (F := Ideal) V c).arrAt 3 cfg2.N
      = Cert.Spec.mm (Cert.Spec.br (V c main_v58) (V c main_v59)) (V c main_arg6) :=
  (dat2 V c).arrAt_eq_of_cover 3 (Cert.Spec.mm (Cert.Spec.br (V c main_v58) (V c main_v59)) (V c main_arg6))
    (fun t _ => written2 V c t) tiles_cover2

end Cert.KernelIdeal.RegionValue

end
-- ==== Proof.Region3.lean ====
/-
  The last layer's rectifier, read as one function of whole arrays.

  The feature table has 50000 rows and 128 columns and is swept in five row tiles of 10000 rows.  At tile t the body
  sees rows 10000·t … 10000·t + 9999 of the table and the whole bias row (a 1 × 128 array, the same block at every
  tile), and writes max(a(p, q) + b(0, q), 0) at every entry (p, q) of the tile.  An entry of the result therefore
  depends on the same entry of the table and on the bias row's entry in the same column, and on nothing else; the five
  tiles are disjoint and fill the table, so after the sweep the output array is the bias-and-rectify function of the
  two input arrays as the sweep found them.
-/
import proofs.«156335_j76398878261379_1_alg».proof.Proof.Gen.KernelIdeal.Frame
import proofs.«156335_j76398878261379_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body loads and stores whole blocks: every offset is zero. -/
theorem zeroOffsets3 : (![0, 0] : Fin 2 → Nat) = fun _ => 0 := funext fun a => by fin_cases a <;> rfl

/-! ## One entry of a tile -/

/-- Entry (p, q) of what the body computes from a row tile x0 and the bias row x1: the tile's entry plus the bias
    row's entry in column q, rectified. -/
theorem biasRelu_entry (x0 : Vec Ideal S10000x128 .f32) (x1 : Vec Ideal S1x128 .f32) (p : Fin 10000) (q : Fin 128) :
    k3_pay1 (F := Ideal) x0 x1 (ix2 p q) = max (x0 (ix2 p q) + x1 (ix2 (0 : Fin 1) q)) 0 := by
  unfold k3_pay1
  rw [maximumf_apply, addf_apply, broadcast_apply, shapeCast_self, shapeCast_self, broadcastTo_1b_ab_apply]
  exact congrArg (max _) Ideal.ofBits_zero_f32

/-- The same entry against whole arrays: if the tile's entry j is the table's entry i, in the same column, and the
    bias block is the bias array, then the body's entry j is the bias-and-rectify function of the arrays at i. -/
theorem biasRelu_tile (a : S50000x128.Idx → Elt Ideal .f32) (b : S1x128.Idx → Elt Ideal .f32)
    (x0 : Vec Ideal S10000x128 .f32) (x1 : Vec Ideal S1x128 .f32) (j : S10000x128.Idx) (i : S50000x128.Idx)
    (hcol : (i 1).val = (j 1).val) (hx0 : x0 j = a i) (hx1 : ∀ q : Fin 128, x1 (ix2 (0 : Fin 1) q) = b (ix2 (0 : Fin 1) q)) :
    k3_pay1 (F := Ideal) x0 x1 j = Cert.Spec.br a b i := by
  obtain ⟨p, q, rfl⟩ : ∃ (p : Fin 10000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hcol
  rw [biasRelu_entry, hx0, hx1, Cert.Spec.br_apply]

/-! ## Where a tile sits in the table -/

/-- The printed index maps over the five tiles: the input tile and the output tile are both tile t of the table
    (block row t, block column 0), and the bias row is always block (0, 0). -/
theorem tileIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry j of the input tile at point t is the table's entry at the place where the output tile's entry j goes:
    row 10000·t + (row of j), the same column. -/
theorem inputTile_read (A : S50000x128.Idx → Elt Ideal .f32) (t : Fin cfg3.N) (j : S10000x128.Idx) :
    ((cfg3.win 0).blk t).view.read (Elt Ideal) A j = A (((cfg3.win 2).blk t).view.emb j) := by
  obtain ⟨e0, e1, -, -, e4, e5⟩ := tileIndex3 t
  show A (((cfg3.win 0).blk t).view.emb j) = A (((cfg3.win 2).blk t).view.emb j)
  refine congrArg A (funext fun a => Fin.ext ?_)
  match a with
  | ⟨0, _⟩ => show win3_0.index t (0 : Fin 2) * 10000 + 1 * (j 0).val = win3_2.index t (0 : Fin 2) * 10000 + 1 * (j 0).val; rw [e0, e4]
  | ⟨1, _⟩ => show win3_0.index t (1 : Fin 2) * 128 + 1 * (j 1).val = win3_2.index t (1 : Fin 2) * 128 + 1 * (j 1).val; rw [e1, e5]

/-- The bias block at any point is the bias array itself. -/
theorem biasBlock_read (B : S1x128.Idx → Elt Ideal .f32) (t : Fin cfg3.N) (y : S1x128.Idx) :
    ((cfg3.win 1).blk t).view.read (Elt Ideal) B y = B y := by
  obtain ⟨-, -, e2, e3, -, -⟩ := tileIndex3 t
  show B (((cfg3.win 1).blk t).view.emb y) = B y
  refine congrArg B (funext fun a => Fin.ext ?_)
  match a with
  | ⟨0, _⟩ => show win3_1.index t (0 : Fin 2) * 1 + 1 * (y 0).val = (y 0).val; rw [e2]; omega
  | ⟨1, _⟩ => show win3_1.index t (1 : Fin 2) * 128 + 1 * (y 1).val = (y 1).val; rw [e3]; omega

/-- The output tile's entry j goes to the column of j. -/
theorem outputTile_col (t : Fin cfg3.N) (j : S10000x128.Idx) :
    ((((cfg3.win 2).blk t).view.emb j : S50000x128.Idx) 1).val = (j 1).val := by
  obtain ⟨-, -, -, -, -, e5⟩ := tileIndex3 t
  show win3_2.index t (1 : Fin 2) * 128 + 1 * (j 1).val = (j 1).val
  rw [e5]; omega

/-! ## What a point writes back, and the array after the sweep -/

/-- Point t writes back tile t of the bias-and-rectify function of the two input arrays as the sweep finds them. -/
theorem written3 (c : Dev nD) (t : Fin cfg3.N) :
    (dat3 (F := Ideal) V c).flushed 2 t
      = ((cfg3.win 2).blk t).view.read (Elt Ideal) (Cert.Spec.br (V c main_v73) (V c main_v74)) := by
  show (cfg3.win 2).cut (grid3.coords t) ((dat3 V c).after 2 t) = _
  rw [after3_2]
  unfold out3_2
  rw [View.canon_unit_zero zeroOffsets3]
  simp only [View.ld_unit_zero (S := S10000x128) zeroOffsets3, View.ld_unit_zero (S := S1x128) zeroOffsets3]
  funext j
  show k3_pay1 (iblk3 V c 0 t) (iblk3 V c 1 t) j
    = Cert.Spec.br (V c main_v73) (V c main_v74) (((cfg3.win 2).blk t).view.emb j)
  exact biasRelu_tile (V c main_v73) (V c main_v74) _ _ j _ (outputTile_col t j)
    (inputTile_read (V c main_v73) t j) (fun q => biasBlock_read (V c main_v74) t (ix2 (0 : Fin 1) q))

/-- An entry of the table is in tile t iff its row is one of the tile's 10000 rows (and its column one of the 128). -/
theorem mem_tile3 (t : Fin cfg3.N) (i : S50000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v75).slice (win3_2.rect t)).set ↔ _
  rw [View.set_slice_whole, Rect.mem_set_unit]
  exact Iff.rfl

/-- Every entry of the table is in the tile of its row: row r is in tile r / 10000. -/
theorem tiles_cover3 (i : S50000x128.Idx) :
    ∃ t : Fin cfg3.N, (cfg3.win 2).flush t = true ∧ i ∈ ((cfg3.win 2).blk t).view.set := by
  have hN : cfg3.N = 5 := N_3
  have hi0 : (i 0).val < 50000 := (i 0).isLt
  have hi1 : (i 1).val < 128 := (i 1).isLt
  obtain ⟨t, ht⟩ : ∃ t : Fin cfg3.N, t.val = (i 0).val / 10000 := ⟨⟨(i 0).val / 10000, by rw [hN]; omega⟩, rfl⟩
  obtain ⟨-, -, -, -, e4, e5⟩ := tileIndex3 t
  refine ⟨t, flush3_2 t, ?_⟩
  rw [mem_tile3]
  intro a
  match a with
  | ⟨0, _⟩ =>
    show win3_2.index t (0 : Fin 2) * 10000 ≤ (i 0).val ∧ (i 0).val < win3_2.index t (0 : Fin 2) * 10000 + 10000
    rw [e4, ht]; omega
  | ⟨1, _⟩ =>
    show win3_2.index t (1 : Fin 2) * 128 ≤ (i 1).val ∧ (i 1).val < win3_2.index t (1 : Fin 2) * 128 + 128
    rw [e5]; omega

/-- THE ARRAY AFTER THE SWEEP: the bias row added to every row of the table as the sweep found it, rectified. -/
theorem final3 (c : Dev nD) :
    (dat3 (F := Ideal) V c).arrAt 2 cfg3.N = Cert.Spec.br (V c main_v73) (V c main_v74) :=
  (dat3 V c).arrAt_eq_of_cover 2 (Cert.Spec.br (V c main_v73) (V c main_v74)) (fun t _ => written3 V c t) tiles_cover3

end Cert.KernelIdeal.RegionValue

end
-- ==== Proof.KernelValue.lean ====
/-
  The idealized kernel's result array is the three layers of its arguments.

  Region 0 leaves the product of the feature table with the first weight matrix; each stretch of host operations after a
  region aggregates that region's table over the edges and lays the next bias as a row; regions 1 and 2 add the bias,
  rectify and multiply by the next weight matrix; region 3 adds the last bias and rectifies.  Walking the fold of buffer
  contents from the last boundary back to the launch memory, each region's array is the whole-array function its row
  tiles restrict (`RegionValue.final0` … `final3`), the index-by-index forms are the host's own operations
  (`Bridge.mm_eq_dot`, `Bridge.br_eq_biasRelu`), and the edge lists and weights are the ones the first stretches
  computed from the edge array.
-/
import proofs.«156335_j76398878261379_1_alg».proof.Proof.KernelHost
import proofs.«156335_j76398878261379_1_alg».proof.Proof.Bridge
import proofs.«156335_j76398878261379_1_alg».proof.Proof.Region0
import proofs.«156335_j76398878261379_1_alg».proof.Proof.Region1
import proofs.«156335_j76398878261379_1_alg».proof.Proof.Region2
import proofs.«156335_j76398878261379_1_alg».proof.Proof.Region3

set_option maxRecDepth 16384

noncomputable section

namespace Cert.KernelIdeal.Layers

open Cert.KernelIdeal Cert.KernelIdeal.Gen Cert.KernelIdeal.HostValue Idealize.ShloMosaic Idealize.ShloMosaic.TcCoe
open Idealize.ShloMosaic.StableHlo Idealize.ShloMosaic.ValueIdx
open Cert.ReferenceIdeal.Graph Cert.ReferenceIdeal.Bridge

variable (m : (ℓ : Loc nD τ sig) → Buf (Elt Ideal) ℓ) (ρ : Dev nD → PrngReg)

/-- The edge lists and weights where a later stretch reads them are those of the edge array. -/
theorem edges_W4 (c : Dev nD) :
    W4 m ρ c (Proc.devRef .tc main_v3) = src (m ((c : Thread nD τ).loc main_arg1)) ∧ W4 m ρ c (Proc.devRef .tc main_v6) = dst (m ((c : Thread nD τ).loc main_arg1))
      ∧ W4 m ρ c (Proc.devRef .tc main_v29) = norm (m ((c : Thread nD τ).loc main_arg1)) :=
  ⟨(carried_W4 m ρ c main_v3 (by decide)).trans (src_W3 m ρ c), (carried_W4 m ρ c main_v6 (by decide)).trans (dst_W3 m ρ c),
    (carried_W4 m ρ c main_v29 (by decide)).trans (norm_W3 m ρ c)⟩

theorem edges_W6 (c : Dev nD) :
    W6 m ρ c (Proc.devRef .tc main_v3) = src (m ((c : Thread nD τ).loc main_arg1)) ∧ W6 m ρ c (Proc.devRef .tc main_v6) = dst (m ((c : Thread nD τ).loc main_arg1))
      ∧ W6 m ρ c (Proc.devRef .tc main_v29) = norm (m ((c : Thread nD τ).loc main_arg1)) :=
  ⟨(carried_W6 m ρ c main_v3 (by decide) (by decide)).trans (src_W3 m ρ c), (carried_W6 m ρ c main_v6 (by decide) (by decide)).trans (dst_W3 m ρ c),
    (carried_W6 m ρ c main_v29 (by decide) (by decide)).trans (norm_W3 m ρ c)⟩

theorem edges_W8 (c : Dev nD) :
    W8 m ρ c (Proc.devRef .tc main_v3) = src (m ((c : Thread nD τ).loc main_arg1)) ∧ W8 m ρ c (Proc.devRef .tc main_v6) = dst (m ((c : Thread nD τ).loc main_arg1))
      ∧ W8 m ρ c (Proc.devRef .tc main_v29) = norm (m ((c : Thread nD τ).loc main_arg1)) :=
  ⟨(carried_W8 m ρ c main_v3 (by decide) (by decide) (by decide)).trans (src_W3 m ρ c),
    (carried_W8 m ρ c main_v6 (by decide) (by decide) (by decide)).trans (dst_W3 m ρ c),
    (carried_W8 m ρ c main_v29 (by decide) (by decide) (by decide)).trans (norm_W3 m ρ c)⟩

/-- After region 0: the table times the first weight matrix. -/
theorem table0 (c : Dev nD) :
    W4 m ρ c (Proc.devRef .tc main_v30) = dot (m ((c : Thread nD τ).loc main_arg0)) (m ((c : Thread nD τ).loc main_arg2)) := by
  rw [show W4 m ρ c (Proc.devRef .tc main_v30) = (dat0 (V3 m ρ) c).arrAt 2 cfg0.N from W4_arr m ρ c 2,
    RegionValue.final0 (V3 m ρ) c,
    show V3 m ρ c main_arg0 = (m ((c : Thread nD τ).loc main_arg0)) from arg_W3 m ρ c main_arg0 (by decide),
    show V3 m ρ c main_arg2 = (m ((c : Thread nD τ).loc main_arg2)) from arg_W3 m ρ c main_arg2 (by decide)]
  exact mm_eq_dot _ _

/-- After region 1: layer 0 finished and multiplied by the second weight matrix. -/
theorem table1 (c : Dev nD) :
    W6 m ρ c (Proc.devRef .tc main_v45)
      = dot (biasRelu (agg (m ((c : Thread nD τ).loc main_arg1)) (dot (m ((c : Thread nD τ).loc main_arg0)) (m ((c : Thread nD τ).loc main_arg2)))) (m ((c : Thread nD τ).loc main_arg3))) (m ((c : Thread nD τ).loc main_arg4)) := by
  obtain ⟨hs, hd, hn⟩ := edges_W4 m ρ c
  have h43 : V5 m ρ c main_v43 = agg (m ((c : Thread nD τ).loc main_arg1)) (dot (m ((c : Thread nD τ).loc main_arg0)) (m ((c : Thread nD τ).loc main_arg2))) := by
    show after hostOps1 (W4 m ρ c) (Proc.devRef .tc main_v43) = _
    rw [agg_stretch1, hs, hd, hn, table0]
    rfl
  have h44 : ∀ q : Fin 128, (V5 m ρ c main_v44 : S1x128.Idx → Elt Ideal .f32) (ix2 (0 : Fin 1) q) = ((m ((c : Thread nD τ).loc main_arg3)) : S128.Idx → Elt Ideal .f32) (ix1 q) := fun q =>
    (row_stretch1 (W4 m ρ c) q).trans (by rw [carried_W4 m ρ c main_arg3 (by decide), arg_W3 m ρ c main_arg3 (by decide)])
  have h4 : V5 m ρ c main_arg4 = (m ((c : Thread nD τ).loc main_arg4)) :=
    (carried_W5 m ρ c main_arg4 (by decide)).trans (arg_W3 m ρ c main_arg4 (by decide))
  rw [show W6 m ρ c (Proc.devRef .tc main_v45) = (dat1 (V5 m ρ) c).arrAt 3 cfg1.N from W6_arr m ρ c 3,
    RegionValue.final1 (V5 m ρ) c, h43, h4, br_eq_biasRelu _ _ _ h44]
  exact mm_eq_dot _ _

/-- After region 2: layer 1 finished and multiplied by the third weight matrix. -/
theorem table2 (c : Dev nD) :
    W8 m ρ c (Proc.devRef .tc main_v60)
      = dot (biasRelu (agg (m ((c : Thread nD τ).loc main_arg1)) (dot (biasRelu (agg (m ((c : Thread nD τ).loc main_arg1)) (dot (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)) := by
  obtain ⟨hs, hd, hn⟩ := edges_W6 m ρ c
  have h58 : V7 m ρ c main_v58 = agg (m ((c : Thread nD τ).loc main_arg1)) (dot (biasRelu (agg (m ((c : Thread nD τ).loc main_arg1)) (dot (m ((c : Thread nD τ).loc main_arg0)) (m ((c : Thread nD τ).loc main_arg2)))) (m ((c : Thread nD τ).loc main_arg3))) (m ((c : Thread nD τ).loc main_arg4))) := by
    show after hostOps2 (W6 m ρ c) (Proc.devRef .tc main_v58) = _
    rw [agg_stretch2, hs, hd, hn, table1]
    rfl
  have h59 : ∀ q : Fin 128, (V7 m ρ c main_v59 : S1x128.Idx → Elt Ideal .f32) (ix2 (0 : Fin 1) q) = ((m ((c : Thread nD τ).loc main_arg5)) : S128.Idx → Elt Ideal .f32) (ix1 q) := fun q =>
    (row_stretch2 (W6 m ρ c) q).trans (by rw [carried_W6 m ρ c main_arg5 (by decide) (by decide), arg_W3 m ρ c main_arg5 (by decide)])
  have h6 : V7 m ρ c main_arg6 = (m ((c : Thread nD τ).loc main_arg6)) :=
    (carried_W7 m ρ c main_arg6 (by decide) (by decide)).trans (arg_W3 m ρ c main_arg6 (by decide))
  rw [show W8 m ρ c (Proc.devRef .tc main_v60) = (dat2 (V7 m ρ) c).arrAt 3 cfg2.N from W8_arr m ρ c 3,
    RegionValue.final2 (V7 m ρ) c, h58, h6, br_eq_biasRelu _ _ _ h59]
  exact mm_eq_dot _ _

/-- After region 3: the three layers. -/
theorem result_eq (c : Dev nD) :
    W10 m ρ c (Proc.devRef .tc main_v75)
      = layers (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨hs, hd, hn⟩ := edges_W8 m ρ c
  have h73 : V9 m ρ c main_v73 = agg (m ((c : Thread nD τ).loc main_arg1)) (dot (biasRelu (agg (m ((c : Thread nD τ).loc main_arg1)) (dot (biasRelu (agg (m ((c : Thread nD τ).loc main_arg1)) (dot (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6))) := by
    show after hostOps3 (W8 m ρ c) (Proc.devRef .tc main_v73) = _
    rw [agg_stretch3, hs, hd, hn, table2]
    rfl
  have h74 : ∀ q : Fin 128, (V9 m ρ c main_v74 : S1x128.Idx → Elt Ideal .f32) (ix2 (0 : Fin 1) q) = ((m ((c : Thread nD τ).loc main_arg7)) : S128.Idx → Elt Ideal .f32) (ix1 q) := fun q =>
    (row_stretch3 (W8 m ρ c) q).trans (by rw [carried_W8 m ρ c main_arg7 (by decide) (by decide) (by decide), arg_W3 m ρ c main_arg7 (by decide)])
  rw [show W10 m ρ c (Proc.devRef .tc main_v75) = (dat3 (V9 m ρ) c).arrAt 2 cfg3.N from W10_arr m ρ c 2,
    RegionValue.final3 (V9 m ρ) c, h73, br_eq_biasRelu _ _ _ h74]
  rfl

end Cert.KernelIdeal.Layers

end
-- ==== Proof.RefValue.lean ====
/-
  The reference's result is the three layers of its arguments.

  The reference's run states its result as one composed term of the launch contents of the arguments; that term is,
  letter for letter, three rounds of (product with a weight matrix, aggregation over the edges, bias and rectifier),
  the edge lists and the edge weights spelt out at each use.  With the graph functions named the two are one term.
-/
import proofs.«156335_j76398878261379_1_alg».proof.Proof.RefRun
import proofs.«156335_j76398878261379_1_alg».proof.Proof.Graph

noncomputable section

namespace Cert.ReferenceIdeal.RefValue

open Cert.ReferenceIdeal Cert.ReferenceIdeal.Gen Cert.ReferenceIdeal.Graph Idealize.ShloMosaic Idealize.ShloMosaic.TcCoe Idealize.SL.Sem

variable {F : FTy → Type} [FloatOps F]

set_option maxRecDepth 8192 in
/-- The run's composed term is `layers` of the arguments' launch contents. -/
theorem result_eq (m : (ℓ : Loc nD τ sig) → Buf (Elt F) ℓ) (c : Dev nD) :
    Cert.ReferenceIdeal.ValueP.res_main_v83 m c
      = layers (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v83 layers biasRelu dot agg aggOf norm src dst
  rfl

end Cert.ReferenceIdeal.RefValue

end
-- ==== Proof.lean ====
/-
  A three-layer graph convolution over 50000 nodes with 128 features, 800000 edges and a self loop at every node:
  each layer multiplies the feature table by a weight matrix, aggregates the product over the edges (gather the rows at
  the sources, scale by the symmetric normalisation 1/sqrt(deg) · 1/sqrt(deg), scatter-add into the targets' rows), adds
  a bias and rectifies.

  The kernel keeps the edge arithmetic and the aggregations on the host, spelt exactly as the reference spells them, and
  moves the dense parts into four pipelined regions over row tiles of 10000 nodes: the first product alone; then, twice,
  "add the previous layer's bias, rectify, multiply by the next weight matrix"; last "add the bias, rectify".  At the exact
  values a change of float format is the identity and a row tile's product is the whole product's rows, so each region
  leaves one whole-array function of its input arrays (Proof/Region0 … Region3, over Proof/Spec's index-by-index forms),
  and those forms are the host's own product and bias-and-rectifier (Proof/Bridge).  The kernel's result array is then
  the same term of the arguments as the reference's (Proof/KernelValue against Proof/RefValue): three rounds of product,
  aggregation, bias and rectifier over the edge lists and weights computed from the edge array.  No algebraic law is
  used beyond reading a product at an entry as a sum, so the precondition is never opened; no rewrite was made by the
  idealisation, so `preserves` holds trivially.
-/
import proofs.«156335_j76398878261379_1_alg».proof.Defs
import proofs.«156335_j76398878261379_1_alg».proof.Proof.Gen.Kernel
import proofs.«156335_j76398878261379_1_alg».proof.Proof.Gen.Kernel.Skeleton
import proofs.«156335_j76398878261379_1_alg».proof.Proof.Gen.Kernel.Launch
import proofs.«156335_j76398878261379_1_alg».proof.Proof.Gen.Kernel.Points
import proofs.«156335_j76398878261379_1_alg».proof.Proof.Gen.Kernel.Frame
import proofs.«156335_j76398878261379_1_alg».proof.Proof.Gen.KernelIdeal
import proofs.«156335_j76398878261379_1_alg».proof.Proof.Gen.KernelIdeal.Skeleton
import proofs.«156335_j76398878261379_1_alg».proof.Proof.Gen.KernelIdeal.Launch
import proofs.«156335_j76398878261379_1_alg».proof.Proof.Gen.KernelIdeal.Points
import proofs.«156335_j76398878261379_1_alg».proof.Proof.Gen.KernelIdeal.Frame
import proofs.«156335_j76398878261379_1_alg».proof.Proof.Gen.ReferenceIdeal
import proofs.«156335_j76398878261379_1_alg».proof.Proof.Gen.Pre_finite_inputs
import proofs.«156335_j76398878261379_1_alg».proof.Proof.KernelRun
import proofs.«156335_j76398878261379_1_alg».proof.Proof.KernelValue
import proofs.«156335_j76398878261379_1_alg».proof.Proof.RefRun
import proofs.«156335_j76398878261379_1_alg».proof.Proof.RefValue
import Idealize.ShloMosaic.Adequacy
import Idealize.ShloMosaic.Init

noncomputable section

namespace Cert.Proof

open Idealize.ShloMosaic Idealize.SL.Sem

/-- The kernel as printed runs and leaves its arguments: the generated frame. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote nothing. -/
theorem preserves : Cert.preserves_Kernel_KernelIdeal := trivial

/-- Both programs end with the three layers of the arguments in their result arrays. -/
theorem algebraic : Cert.algebraic_KernelIdeal_ReferenceIdeal := by
  intro m ρ m' ρ' _ hagree
  refine ⟨fun c : Dev Cert.KernelIdeal.nD => Cert.ReferenceIdeal.Graph.layers (m ((c.tc : Thread Cert.KernelIdeal.nD Cert.KernelIdeal.τ).loc Cert.KernelIdeal.main_arg1)) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    (θ_run Cert.KernelIdeal.defs _ _).mono
      (fun r h c => ⟨(h c).1.trans (Cert.KernelIdeal.Layers.result_eq m ρ c), (h c).2⟩)
      (Cert.KernelIdeal.Run.run_boundary m ρ), ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.RefValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
